-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S4096x4096_S4096_d1 : S4096x4096.ReducesTo [1] S4096
  h_S_ : 0 < S_.numel
  shapeCasts_S4096_S4096x1 : S4096.ShapeCasts S4096x1
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The pairwise cosine similarity of the rows of two 4096 × 4096 arrays, as ONE function of the arrays, entry by entry:

      S(i, j) = (Σ_{k<4096} A(i,k) · B(j,k)) / max (a(i) · b(j), ε)

  where `a`, `b` are the vectors of row norms of `A`, `B` (kept as parameters: both programs compute them by the same
  host operations, so they are never opened) and `ε` is the f32 word both programs clamp the denominator with.
  Entries are read at NATURAL coordinates (`at2`, `at1`), so that a block's entry at (block · size + offset) and the
  whole array's entry at a `Fin` coordinate are the same term.
-/
import Idealize.ShloMosaic.PureOps.Ideal
import Idealize.ShloMosaic.Lib.ValueIdx

noncomputable section

namespace Cert.CosSim

open Idealize.ShloMosaic Idealize.ShloMosaic.ValueIdx

/-- A 4096 × 4096 array of extended reals, and a vector of 4096. -/
abbrev Mat : Type := (⟨2, ![4096, 4096]⟩ : Shape).Idx → EReal
abbrev Col : Type := (⟨1, ![4096]⟩ : Shape).Idx → EReal

/-- The entry of an array at natural coordinates (`0` outside it: never read). -/
def at2 (A : Mat) (r c : ℕ) : EReal :=
  if h : r < 4096 ∧ c < 4096 then A (ix2 ⟨r, h.1⟩ ⟨c, h.2⟩) else 0

/-- The entry of a vector at a natural coordinate (`0` outside it: never read). -/
def at1 (v : Col) (r : ℕ) : EReal :=
  if h : r < 4096 then v (ix1 ⟨r, h⟩) else 0

/-- Inside the array the natural reading is the entry. -/
theorem at2_of_lt (A : Mat) {r c : ℕ} (hr : r < 4096) (hc : c < 4096) : at2 A r c = A (ix2 ⟨r, hr⟩ ⟨c, hc⟩) :=
  dif_pos ⟨hr, hc⟩

theorem at1_of_lt (v : Col) {r : ℕ} (hr : r < 4096) : at1 v r = v (ix1 ⟨r, hr⟩) := dif_pos hr

/-- At an index's own coordinates the natural reading is the array's entry. -/
theorem at2_idx (A : Mat) (j : (⟨2, ![4096, 4096]⟩ : Shape).Idx) : at2 A (j 0).val (j 1).val = A j := by
  unfold at2
  rw [dif_pos ⟨(j 0).isLt, (j 1).isLt⟩]
  exact congrArg A (eq_ix2 j).symm

theorem at1_idx (v : Col) (j : (⟨1, ![4096]⟩ : Shape).Idx) : at1 v (j 0).val = v j := by
  unfold at1
  rw [dif_pos (show (j 0).val < 4096 from (j 0).isLt)]
  exact congrArg v (eq_ix1 j).symm

/-- The clamp: the f32 word `0x322BCC77` (about 1e-8), read as the extended real it denotes; never evaluated. -/
abbrev eps : EReal := Ideal.ofBits .f32 0x322BCC77#32

/-- The dot product of row `r` of `A` with row `s` of `B`. -/
def rowDot (A B : Mat) (r s : ℕ) : EReal := ∑ k : Fin 4096, at2 A r k.val * at2 B s k.val

/-- The cosine similarity at natural coordinates. -/
def cosAt (A B : Mat) (a b : Col) (r s : ℕ) : EReal :=
  Ideal.div (rowDot A B r s) (max (at1 a r * at1 b s) eps)

/-- The similarity array. -/
def cosSim (A B : Mat) (a b : Col) : Mat := fun i => cosAt A B a b (i 0).val (i 1).val

end Cert.CosSim

end
-- ==== Proof.RefIsSpec.lean ====
/-
  The reference computes the similarity array.

  Its result is `(x · yᵀ) / max (‖x_i‖ · ‖y_j‖, ε)`: the transpose turns the matrix product's entry (i, j) into
  `Σ_k x(i, k) · y(j, k)`, the two norm vectors are broadcast to a column and a row and multiplied, and the clamp and
  the quotient are entrywise. Read entry by entry this is the specification's `cosSim` over the reference's own norm
  vectors — no arithmetic law is used, only where each operand is read.
-/
import proofs.«125992_j61942018342957_1_alg».proof.Proof.Gen.ReferenceIdeal.Read
import proofs.«125992_j61942018342957_1_alg».proof.Proof.Spec

noncomputable section

namespace Cert.ReferenceIdeal.RefValue

open Idealize.ShloMosaic Idealize.ShloMosaic.ValueIdx
open Cert.ReferenceIdeal Cert.ReferenceIdeal.Read Cert.CosSim

/-- The reference's result array is the similarity array of its arguments, over the norms it computes. -/
theorem result_eq_cosSim (x0 x1 : (⟨S4096x4096, .f32⟩ : BufTy).Contents (Elt Ideal)) :
    val_main_v11 (F := Ideal) x0 x1 = cosSim x0 x1 (val_main_v2 (F := Ideal) x0) (val_main_v3 (F := Ideal) x1) := by
  funext i
  rw [val_main_v11_apply, val_main_v1_apply, val_main_v10_apply, val_main_v8_apply, val_main_v6_apply, val_main_v4_apply,
    val_main_v7_apply, val_main_v5_apply, val_main_v9_apply, val_main_cst_apply]
  simp only [val_main_v0_apply, Ideal.hostDivf_def, Ideal.maximumf_def, Ideal.mulf_def, Ideal.ofBits_def]
  unfold cosSim cosAt rowDot
  refine congrArg₂ Ideal.div (Finset.sum_congr rfl fun k _ => ?_) (congrArg (max · eps) ?_)
  · exact congrArg₂ (· * ·) (at2_idx x0 (lidx_main_v1 i k)).symm (at2_idx x1 (idx_main_v0 (ridx_main_v1 i k))).symm
  · exact congrArg₂ (· * ·) (at1_idx (val_main_v2 (F := Ideal) x0) (idx_main_v4 (idx_main_v6 i))).symm
      (at1_idx (val_main_v3 (F := Ideal) x1) (idx_main_v5 (idx_main_v7 i))).symm

end Cert.ReferenceIdeal.RefValue

end
-- ==== Proof.Pieces.lean ====
/-
  What one run of the kernel body leaves behind, as values of its loads.

  The body keeps a 512 × 512 accumulator between grid points. Each run adds to it the product of the point's two
  512 × 1024 input blocks (`k0_pay2`); the first point of every run of four first clears it (`k0_pay1`, the zero
  block), and the last point also stores the quotient of the accumulator by the clamped product of the two norm
  blocks (`k0_pay3`) into the output block. Here each of these is read off the stores the body's run found, for any
  float values: every store covers its whole buffer, so the buffer ends at the LAST store's value, and every load of
  a whole buffer reads its contents.
-/
import proofs.«125992_j61942018342957_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- A rectangle at offsets (0, 0) starts at the origin. -/
theorem hz : (![0, 0] : Fin 2 → Nat) = fun _ => 0 := funext fun a => by fin_cases a <;> rfl

/-- FIRST POINT of a run of four (the accumulator is cleared, then added to): the accumulator ends at the zero block
    plus the product of the two input blocks. -/
theorem acc_first (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i)
    (x0 : Vec F S512x1024 .f32) (x1 : Vec F S512x1024 .f32) (x2 : Vec F S512x1 .f32) (x3 : Vec F S1x512 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) hz, View.readCov_unit_zero (S := S512x512) _ hz]
  simp only [View.readAt_eq_ld, harg3.read_unread, harg4.read_unread, View.ld_unit_zero (S := S512x1024) hz]

/-- A MIDDLE POINT (neither cleared nor divided): what the point before left, plus the product of the input blocks. -/
theorem acc_middle (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : ¬cond0_1 i)
    (x0 : Vec F S512x1024 .f32) (x1 : Vec F S512x1024 .f32) (x2 : Vec F S512x1 .f32) (x3 : Vec F S1x512 .f32) (xs0 : Vec F S512x512 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg8.read_unread,
    View.ld_unit_zero (S := S512x1024) hz, View.ld_unit_zero (S := S512x512) hz]

/-- THE LAST POINT of a run of four: the accumulator gets the same addition … -/
theorem acc_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i)
    (x0 : Vec F S512x1024 .f32) (x1 : Vec F S512x1024 .f32) (x2 : Vec F S512x1 .f32) (x3 : Vec F S1x512 .f32) (xs0 : Vec F S512x512 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg8.read_unread,
    View.ld_unit_zero (S := S512x1024) hz, View.ld_unit_zero (S := S512x512) hz]

/-- … and the output block is the quotient of the accumulator just stored by the clamped product of the norm blocks. -/
theorem out_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i)
    (x0 : Vec F S512x1024 .f32) (x1 : Vec F S512x1024 .f32) (x2 : Vec F S512x1 .f32) (x3 : Vec F S1x512 .f32) (xs0 : Vec F S512x512 .f32) :
    out0_C_4 c i arg3 harg3 arg4 harg4 arg5 harg5 arg6 harg6 arg7 harg7 arg8 harg8 hc0 hc1 x0 x1 x2 x3 xs0 = k0_pay3 x2 x3 (k0_pay2 x0 x1 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S512x512) _ hz]
  simp only [View.readAt_eq_ld, harg3.read_unread, harg4.read_unread, harg5.read_unread, harg6.read_unread,
    harg8.read_unread, View.ld_unit_zero (S := S512x1024) hz, View.ld_unit_zero (S := S512x512) hz,
    View.ld_unit_zero (S := S512x1) hz, View.ld_unit_zero (S := S1x512) hz]

end Cert.KernelIdeal.Pieces

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.Payload.lean ====
/-
  The body's three stored values read entry by entry, at the exact (extended real) values.

    zero block      Z(p, q)        = 0
    accumulate      (acc ⊕ x·yᵀ)(p, q) = acc(p, q) + Σ_{k<1024} x(p, k) · y(q, k)
    divide          out(p, q)      = acc(p, q) / max (nx(p, 0) · ny(0, q), ε)

  The casts to bf16 before the product are the identity on extended reals; the product contracts the LAST axis of
  both operands (x · yᵀ), so entry (p, q) pairs row p of x with row q of y; the norm blocks are a column [512, 1]
  and a row [1, 512] broadcast over the block.
-/
import proofs.«125992_j61942018342957_1_alg».proof.Proof.Gen.KernelIdeal.Skeleton
import proofs.«125992_j61942018342957_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Idealize.ShloMosaic.ValueLayout
open Cert.KernelIdeal Cert.KernelIdeal.Gen

/-- The cleared accumulator is zero everywhere. -/
theorem zero_apply (y : S512x512.Idx) : k0_pay1 (F := Ideal) y = 0 := by
  unfold k0_pay1
  rw [shapeCast_self]
  exact Ideal.ofBits_zero_f32

/-! ### The product's operand indices: output entry (p, q), contraction coordinate k ↦ x(p, k), y(q, k) -/

theorem lhs_row (j : S512x512.Idx) (κ : dot_S512x1024_S512x1024_S512x512_1_1_0_0_n_n.contr.Idx) :
    (dot_S512x1024_S512x1024_S512x512_1_1_0_0_n_n.lhsIdx j κ 0).val = (j 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem lhs_col (j : S512x512.Idx) (κ : dot_S512x1024_S512x1024_S512x512_1_1_0_0_n_n.contr.Idx) :
    (dot_S512x1024_S512x1024_S512x512_1_1_0_0_n_n.lhsIdx j κ 1).val = (κ ⟨0, by decide⟩).val :=
  dot_S512x1024_S512x1024_S512x512_1_1_0_0_n_n.lhsIdx_val_of_single rfl j κ
theorem rhs_row (j : S512x512.Idx) (κ : dot_S512x1024_S512x1024_S512x512_1_1_0_0_n_n.contr.Idx) :
    (dot_S512x1024_S512x1024_S512x512_1_1_0_0_n_n.rhsIdx j κ 0).val = (j 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem rhs_col (j : S512x512.Idx) (κ : dot_S512x1024_S512x1024_S512x512_1_1_0_0_n_n.contr.Idx) :
    (dot_S512x1024_S512x1024_S512x512_1_1_0_0_n_n.rhsIdx j κ 1).val = (κ ⟨0, by decide⟩).val :=
  dot_S512x1024_S512x1024_S512x512_1_1_0_0_n_n.rhsIdx_val_of_single rfl j κ

/-- The product of the two blocks into a zero accumulator, at (p, q): row p of x against row q of y. -/
theorem product_apply (x y : FVec Ideal S512x1024 .bf16) (p q : Fin 512) :
    matmul dot_S512x1024_S512x1024_S512x512_1_1_0_0_n_n none x y (constant (F := Ideal) S512x512 .f32 0x00000000#32) (ix2 p q)
      = ∑ k : Fin 1024, x (ix2 p k) * y (ix2 q k) := by
  simp only [matmul]
  rw [Ideal.matmul_constant_zero_apply,
    ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q)
      ((contrEquiv1 dot_S512x1024_S512x1024_S512x512_1_1_0_0_n_n 1024 rfl rfl).symm k) = ix2 p k :=
    funext fun a => Fin.ext (by
      match a with
      | ⟨0, _⟩ => exact lhs_row _ _
      | ⟨1, _⟩ => exact (lhs_col _ _).trans hk)
  have er : dot_S512x1024_S512x1024_S512x512_1_1_0_0_n_n.rhsIdx (ix2 p q)
      ((contrEquiv1 dot_S512x1024_S512x1024_S512x512_1_1_0_0_n_n 1024 rfl rfl).symm k) = ix2 q k :=
    funext fun a => Fin.ext (by
      match a with
      | ⟨0, _⟩ => exact rhs_row _ _
      | ⟨1, _⟩ => exact (rhs_col _ _).trans hk)
  rw [el, er]

/-- The accumulate step at (p, q): what was there plus the products along row p of x and row q of y. -/
theorem accumulate_apply (x y : Vec Ideal S512x1024 .f32) (acc : Vec Ideal S512x512 .f32) (p q : Fin 512) :
    k0_pay2 x y acc (ix2 p q) = acc (ix2 p q) + ∑ k : Fin 1024, x (ix2 p k) * y (ix2 q k) := by
  unfold k0_pay2
  rw [shapeCast_self]
  exact congrArg (acc (ix2 p q) + ·) (product_apply _ _ p q)

/-- The divide step at (p, q): the accumulator over the clamped product of the row's and the column's norms. -/
theorem divide_apply (nx : Vec Ideal S512x1 .f32) (ny : Vec Ideal S1x512 .f32) (acc : Vec Ideal S512x512 .f32) (p q : Fin 512) :
    k0_pay3 nx ny acc (ix2 p q)
      = Ideal.div (acc (ix2 p q)) (max (nx (ix2 p (0 : Fin 1)) * ny (ix2 (0 : Fin 1) q)) (Ideal.ofBits .f32 0x322BCC77#32)) := by
  unfold k0_pay3
  rw [shapeCast_self, shapeCast_self]
  show Ideal.div (acc (ix2 p q)) (max (broadcastTo S512x512 nx broadcasts_S512x1_S512x512 (ix2 p q)
    * broadcastTo S512x512 ny broadcasts_S1x512_S512x512 (ix2 p q)) (Ideal.ofBits .f32 0x322BCC77#32)) = _
  rw [broadcastTo_a1_ab_apply, broadcastTo_1b_ab_apply]

end Cert.KernelIdeal.Payload

end
-- ==== Proof.Blocks.lean ====
/-
  What the kernel's windows read, entry by entry, at any grid point.

  The grid is 8 × 8 × 4, visited in row-major order: point `t` has block row `t / 32`, block column `(t / 4) % 8` and
  reduction step `t % 4`. At that point
    the x window is rows 512·(t/32) …, columns 1024·(t%4) … of the first argument,
    the y window is rows 512·((t/4)%8) …, columns 1024·(t%4) … of the second,
    the two norm windows are rows 512·(t/32) … of the column of x's row norms and lanes 512·((t/4)%8) … of the row
    of y's row norms,
  the norm vectors being what the host operations before the call leave: `sqrt (0 + Σ_k v(r, k)²)` per row, reshaped
  to a column [4096, 1] and to a row [1, 4096].
-/
import proofs.«125992_j61942018342957_1_alg».proof.Proof.Gen.KernelIdeal.Frame
import proofs.«125992_j61942018342957_1_alg».proof.Proof.Spec
import proofs.«125992_j61942018342957_1_alg».proof.Proof.LibColumnForms
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.SL.Sem Idealize.ShloMosaic.StableHlo
open Idealize.ShloMosaic.ValueIdx Idealize.ShloMosaic.ValueLayout
open Cert.KernelIdeal Cert.KernelIdeal.Gen Cert.CosSim

variable (m : (ℓ : Loc nD τ sig) → Buf (Elt Ideal) ℓ)

/-- The two argument arrays as launched. -/
abbrev argX (c : Dev nD) : Mat := m ((c : Thread nD τ).loc main_arg0)
abbrev argY (c : Dev nD) : Mat := m ((c : Thread nD τ).loc main_arg1)

/-- The vector of row norms as @main computes it: per row, the square root of zero plus the sum of squares. -/
def rowNorms (x : Mat) : Col :=
  Host.sqrt (F := Ideal) (Host.reduceAdd (F := Ideal) (mulf (F := Ideal) (s := S4096x4096) (φ := .f32) x x)
    (constant (F := Ideal) S_ .f32 0x00000000#32) reducesTo_S4096x4096_S4096_d1 h_S_)

/-- Where each window's block sits at point `t`, decided over the 256 points. -/
theorem block_index : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = 0
    ∧ win0_3.index t (0 : Fin 2) = 0 ∧ win0_3.index t (1 : Fin 2) = t.val / 4 % 8
    ∧ win0_4.index t (0 : Fin 2) = t.val / 32 ∧ win0_4.index t (1 : Fin 2) = t.val / 4 % 8 :=
  (by decide +kernel : ∀ t : Fin grid0.N, _)

/-- The column of x's row norms, as the region finds it. -/
theorem norm_column (c : Dev nD) :
    (V m c main_v1 : S4096x1.Idx → EReal) = shapeCast S4096x1 (rowNorms (argX m c)) shapeCasts_S4096_S4096x1 := by
  dsimp only [V]
  simp only [hostOps0, hostOps0_1, hostOps0_2, hostOps0_3, List.flatten_cons, List.flatten_nil, List.append_nil,
    List.cons_append, List.nil_append]
  after_results
  rfl

/-- The row of y's row norms, as the region finds it. -/
theorem norm_row (c : Dev nD) :
    (V m c main_v3 : S1x4096.Idx → EReal) = shapeCast S1x4096 (rowNorms (argY m c)) shapeCasts_S4096_S1x4096 := by
  dsimp only [V]
  simp only [hostOps0, hostOps0_1, hostOps0_2, hostOps0_3, List.flatten_cons, List.flatten_nil, List.append_nil,
    List.cons_append, List.nil_append]
  after_results
  rfl

/-- The x window at point `t`: entry (p, k) of the block is entry (512·(t/32) + p, 1024·(t%4) + k) of x. -/
theorem block_x (c : Dev nD) (t : Fin cfg0.N) (y : S512x1024.Idx) :
    iblk m c 0 t y = at2 (argX m c) (512 * (t.val / 32) + (y 0).val) (1024 * (t.val % 4) + (y 1).val) := by
  obtain ⟨e0, e1, -⟩ := block_index t
  show V m c main_arg0 (((cfg0.win 0).blk t).view.emb y) = _
  rw [V_main_arg0]
  refine (at2_idx (argX m c) _).symm.trans (congrArg₂ (at2 (argX m c)) ?_ ?_)
  · show win0_0.index t (0 : Fin 2) * 512 + 1 * (y 0).val = _
    rw [e0]; omega
  · show win0_0.index t (1 : Fin 2) * 1024 + 1 * (y 1).val = _
    rw [e1]; omega

/-- The y window at point `t`: entry (q, k) of the block is entry (512·((t/4)%8) + q, 1024·(t%4) + k) of y. -/
theorem block_y (c : Dev nD) (t : Fin cfg0.N) (y : S512x1024.Idx) :
    iblk m c 1 t y = at2 (argY m c) (512 * (t.val / 4 % 8) + (y 0).val) (1024 * (t.val % 4) + (y 1).val) := by
  obtain ⟨-, -, e0, e1, -⟩ := block_index t
  show V m c main_arg1 (((cfg0.win 1).blk t).view.emb y) = _
  rw [V_main_arg1]
  refine (at2_idx (argY m c) _).symm.trans (congrArg₂ (at2 (argY m c)) ?_ ?_)
  · show win0_1.index t (0 : Fin 2) * 512 + 1 * (y 0).val = _
    rw [e0]; omega
  · show win0_1.index t (1 : Fin 2) * 1024 + 1 * (y 1).val = _
    rw [e1]; omega

/-- The window on the column of x's norms at point `t`: entry (p, 0) is the norm of row 512·(t/32) + p of x. -/
theorem block_nx (c : Dev nD) (t : Fin cfg0.N) (p : Fin 512) :
    iblk m c 2 t (ix2 p (0 : Fin 1)) = at1 (rowNorms (argX m c)) (512 * (t.val / 32) + p.val) := by
  obtain ⟨-, -, -, -, e0, e1, -⟩ := block_index t
  have hN : t.val < 256 := lt_of_lt_of_eq t.isLt N_0
  have hr : 512 * (t.val / 32) + p.val < 4096 := by have := p.isLt; omega
  show (V m c main_v1 : S4096x1.Idx → EReal) (((cfg0.win 2).blk t).view.emb (ix2 p (0 : Fin 1))) = _
  rw [norm_column, at1_of_lt _ hr]
  have e : ((cfg0.win 2).blk t).view.emb (ix2 p (0 : Fin 1)) = ix2 (⟨512 * (t.val / 32) + p.val, hr⟩ : Fin 4096) (0 : Fin 1) :=
    funext fun a => Fin.ext (by
      match a with
      | ⟨0, _⟩ => show win0_2.index t (0 : Fin 2) * 512 + 1 * p.val = 512 * (t.val / 32) + p.val; rw [e0]; omega
      | ⟨1, _⟩ => show win0_2.index t (1 : Fin 2) * 1 + 1 * 0 = 0; rw [e1])
  rw [e]
  exact shapeCast_a_a1_apply _ _ _ _

/-- The window on the row of y's norms at point `t`: entry (0, q) is the norm of row 512·((t/4)%8) + q of y. -/
theorem block_ny (c : Dev nD) (t : Fin cfg0.N) (q : Fin 512) :
    iblk m c 3 t (ix2 (0 : Fin 1) q) = at1 (rowNorms (argY m c)) (512 * (t.val / 4 % 8) + q.val) := by
  obtain ⟨-, -, -, -, -, -, e0, e1, -⟩ := block_index t
  have hN : t.val < 256 := lt_of_lt_of_eq t.isLt N_0
  have hr : 512 * (t.val / 4 % 8) + q.val < 4096 := by have := q.isLt; omega
  show (V m c main_v3 : S1x4096.Idx → EReal) (((cfg0.win 3).blk t).view.emb (ix2 (0 : Fin 1) q)) = _
  rw [norm_row, at1_of_lt _ hr]
  have e : ((cfg0.win 3).blk t).view.emb (ix2 (0 : Fin 1) q) = ix2 (0 : Fin 1) (⟨512 * (t.val / 4 % 8) + q.val, hr⟩ : Fin 4096) :=
    funext fun a => Fin.ext (by
      match a with
      | ⟨0, _⟩ => show win0_3.index t (0 : Fin 2) * 1 + 1 * 0 = 0; rw [e0]
      | ⟨1, _⟩ => show win0_3.index t (1 : Fin 2) * 512 + 1 * q.val = 512 * (t.val / 4 % 8) + q.val; rw [e1]; omega)
  rw [e]
  exact shapeCast_a_1a_apply _ _ _ _

end Cert.KernelIdeal.Blocks

end
-- ==== Proof.SumBlocks.lean ====
/-
  A sum over 4096 consecutive indices is the sum, over four consecutive blocks of 1024, of each block's sum.
  Addition in a commutative monoid associates, so the regrouping holds for every summand; on the extended
  reals that includes the infinities.
-/
import Mathlib.Algebra.BigOperators.Fin
import Mathlib.Algebra.BigOperators.Intervals

namespace Cert.CosSim

/-- `Σ_{s<4} Σ_{k<1024} f (1024·s + k) = Σ_{k<4096} f k`. -/
theorem sum_four_blocks {M : Type*} [AddCommMonoid M] (f : ℕ → M) :
    ∑ s ∈ Finset.range 4, ∑ k : Fin 1024, f (1024 * s + k.val) = ∑ k : Fin 4096, f k.val := by
  have hb : ∀ s : ℕ, ∑ k : Fin 1024, f (1024 * s + k.val) = ∑ k ∈ Finset.range 1024, f (1024 * s + k) :=
    fun s => Fin.sum_univ_eq_sum_range (fun k => f (1024 * s + k)) 1024
  have e4 : ∀ g : ℕ → M, ∑ s ∈ Finset.range 4, g s = g 0 + g 1 + g 2 + g 3 := fun g => by
    rw [Finset.sum_range_succ, Finset.sum_range_succ, Finset.sum_range_succ, Finset.sum_range_one]
  rw [Fin.sum_univ_eq_sum_range f 4096]
  simp only [hb]
  rw [e4, show (4096 : ℕ) = 1024 + 1024 + 1024 + 1024 from rfl, Finset.sum_range_add, Finset.sum_range_add,
    Finset.sum_range_add]
  rfl

end Cert.CosSim
-- ==== Proof.Accumulate.lean ====
/-
  The accumulator over a run of four grid points, and the output block at the run's last point.

  The four reduction steps t ≡ 0, 1, 2, 3 (mod 4) of one output block share the block's row and column; step s adds
  the partial dot products over columns 1024·s … 1024·s + 1023. So after the last step the accumulator's entry (p, q)
  is  0 + Σ_{s<4} Σ_{k<1024} x(R, 1024·s + k) · y(C, 1024·s + k)  with R = 512·(t/32) + p, C = 512·((t/4)%8) + q,
  which is the whole dot product of row R of x with row C of y: the sum of 4096 terms cut into four blocks of 1024.
  Only associativity of addition is used, so no entry needs to be finite.
-/
import proofs.«125992_j61942018342957_1_alg».proof.Proof.Gen.KernelIdeal.Value
import proofs.«125992_j61942018342957_1_alg».proof.Proof.Pieces
import proofs.«125992_j61942018342957_1_alg».proof.Proof.Payload
import proofs.«125992_j61942018342957_1_alg».proof.Proof.Blocks
import proofs.«125992_j61942018342957_1_alg».proof.Proof.SumBlocks

set_option maxRecDepth 16384

noncomputable section

namespace Cert.KernelIdeal.Accumulate

open Idealize.ShloMosaic Idealize.ShloMosaic.TcCoe Idealize.SL.Sem
open Idealize.ShloMosaic.ValueIdx
open Cert.KernelIdeal Cert.KernelIdeal.Gen Cert.KernelIdeal.Blocks Cert.CosSim

variable (m : (ℓ : Loc nD τ sig) → Buf (Elt Ideal) ℓ)

/-- What point `n` adds to the accumulator's entry `y`: the dot product of its x block's row with its y block's row. -/
def addend (c : Dev nD) (n : ℕ) (y : S512x512.Idx) : EReal :=
  ∑ k : Fin 1024, at2 (argX m c) (512 * (n / 32) + (y 0).val) (1024 * (n % 4) + k.val)
    * at2 (argY m c) (512 * (n / 4 % 8) + (y 1).val) (1024 * (n % 4) + k.val)

/-- One accumulate step at point `t`, at an entry. -/
theorem step_apply (c : Dev nD) (t : Fin cfg0.N) (acc : Vec Ideal S512x512 .f32) (y : S512x512.Idx) :
    k0_pay2 (iblk m c 0 t) (iblk m c 1 t) acc y = acc y + addend m c t.val y := by
  obtain ⟨p, q, rfl⟩ : ∃ (p : Fin 512) (q : Fin 512), y = ix2 p q := ⟨y 0, y 1, eq_ix2 y⟩
  refine (Payload.accumulate_apply (iblk m c 0 t) (iblk m c 1 t) acc p q).trans ?_
  refine congrArg (acc (ix2 p q) + ·) (Finset.sum_congr rfl fun k _ => ?_)
  exact congrArg₂ (· * ·) (block_x m c t (ix2 p k)) (block_y m c t (ix2 q k))

/-- At the first point of a run the accumulator is cleared, then stepped. -/
theorem scAt_first (c : Dev nD) (t : Fin cfg0.N) (h0 : t.val % 4 = 0) (acc : Vec Ideal S512x512 .f32) :
    Value.scAt0_0 m c t.val t.isLt acc = k0_pay2 (iblk m c 0 t) (iblk m c 1 t) (k0_pay1 (F := Ideal)) := by
  have h1 : ¬t.val % 4 = 3 := by omega
  unfold Value.scAt0_0
  rw [dif_pos h0, dif_neg h1]
  exact Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every later point of a run it is stepped from what the point before left. -/
theorem scAt_later (c : Dev nD) (t : Fin cfg0.N) (h0 : ¬t.val % 4 = 0) (acc : Vec Ideal S512x512 .f32) :
    Value.scAt0_0 m c t.val t.isLt acc = k0_pay2 (iblk m c 0 t) (iblk m c 1 t) acc := by
  unfold Value.scAt0_0
  rw [dif_neg h0]
  by_cases h1 : t.val % 4 = 3
  · rw [dif_pos h1]
    exact Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) acc
  · rw [dif_neg h1]
    exact Pieces.acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) acc

/-- THE ACCUMULATOR AFTER POINT `t`: zero plus the addends of its run's points up to `t`. -/
theorem acc_after (c : Dev nD) (t : Fin cfg0.N) (y : S512x512.Idx) :
    (outsAt0 m c t.val t.isLt).2 y
      = 0 + ∑ s ∈ Finset.range (t.val % 4 + 1), addend m c (4 * (t.val / 4) + s) y := by
  rw [Value.soutsAt0_0_eq m c t]
  exact Pipeline.accAt_add_apply
    (fun n h => Value.scAt0_0 m c n h (VS0_0.read (Elt Ideal) VS0_0.junk)) (Value.scAt0_0 m c)
    (fun _ => (0 : EReal)) (addend m c) (4 * (t.val / 4)) 3
    (fun h i =>
      ((congrFun (scAt_first m c ⟨4 * (t.val / 4), h⟩ (by show 4 * (t.val / 4) % 4 = 0; omega) _) i).trans
        (step_apply m c ⟨4 * (t.val / 4), h⟩ _ i)).trans (congrArg (· + _) (Payload.zero_apply i)))
    (fun n h acc i hb he =>
      (congrFun (scAt_later m c ⟨n, h⟩ (by show ¬n % 4 = 0; omega) acc) i).trans (step_apply m c ⟨n, h⟩ acc i))
    (t.val % 4) (by omega) _ y

/-- At the LAST point of a run the accumulator's entry (p, q) is the whole dot product of the block's row of x with
    the block's row of y. -/
theorem acc_full (c : Dev nD) (t : Fin cfg0.N) (h3 : t.val % 4 = 3) (p q : Fin 512) :
    (outsAt0 m c t.val t.isLt).2 (ix2 p q)
      = rowDot (argX m c) (argY m c) (512 * (t.val / 32) + p.val) (512 * (t.val / 4 % 8) + q.val) := by
  rw [acc_after m c t (ix2 p q), zero_add, h3]
  unfold rowDot
  rw [← sum_four_blocks (fun k => at2 (argX m c) (512 * (t.val / 32) + p.val) k * at2 (argY m c) (512 * (t.val / 4 % 8) + q.val) k)]
  refine Finset.sum_congr rfl fun s hs => ?_
  have hs4 : s < 4 := Finset.mem_range.mp hs
  have e1 : (4 * (t.val / 4) + s) / 32 = t.val / 32 := by omega
  have e2 : (4 * (t.val / 4) + s) / 4 % 8 = t.val / 4 % 8 := by omega
  have e3 : (4 * (t.val / 4) + s) % 4 = s := by omega
  unfold addend
  rw [e1, e2, e3]

/-- THE OUTPUT BLOCK at the last point of a run: the quotient of the accumulator that point leaves by the clamped
    product of the norm blocks. -/
theorem out_after (c : Dev nD) (t : Fin cfg0.N) (h0 : ¬t.val % 4 = 0) (h3 : t.val % 4 = 3) :
    (outsAt0 m c t.val t.isLt).1 = k0_pay3 (iblk m c 2 t) (iblk m c 3 t) ((outsAt0 m c t.val t.isLt).2) := by
  rw [outsAt0_C m c t h0 h3]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) _).trans
    (congrArg (k0_pay3 (iblk m c 2 t) (iblk m c 3 t))
      (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) _).symm)

end Cert.KernelIdeal.Accumulate

end
-- ==== Proof.Result.lean ====
/-
  The kernel's result array is the similarity array of its arguments.

  The output block (I, J) is written back once, at the last of its four reduction steps, t = 32·I + 4·J + 3. What is
  written there is, entry (p, q), the full dot product of row 512·I + p of x with row 512·J + q of y over the clamped
  product of the two rows' norms: entry (512·I + p, 512·J + q) of the similarity array. The 64 blocks written back
  tile the 4096 × 4096 array, so the array ends holding the similarity array everywhere.
-/
import proofs.«125992_j61942018342957_1_alg».proof.Proof.Gen.KernelIdeal.Value
import proofs.«125992_j61942018342957_1_alg».proof.Proof.Accumulate

set_option maxRecDepth 16384

noncomputable section

namespace Cert.KernelIdeal.Result

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Blocks Cert.KernelIdeal.Accumulate Cert.CosSim

variable (m : (ℓ : Loc nD τ sig) → Buf (Elt Ideal) ℓ) (ρ : Dev nD → PrngReg)

/-- The similarity array of the arguments as launched, over the row norms @main computes. -/
abbrev target (c : Dev nD) : Mat :=
  cosSim (argX m c) (argY m c) (rowNorms (argX m c)) (rowNorms (argY m c))

/-- Where entry (p, q) of the output block at point `t` sits in the array. -/
theorem out_coords (t : Fin cfg0.N) (p q : Fin 512) (hr : 512 * (t.val / 32) + p.val < 4096)
    (hc : 512 * (t.val / 4 % 8) + q.val < 4096) :
    (((cfg0.win 4).blk t).view.emb (ix2 p q) : S4096x4096.Idx)
      = ix2 (⟨512 * (t.val / 32) + p.val, hr⟩ : Fin 4096) (⟨512 * (t.val / 4 % 8) + q.val, hc⟩ : Fin 4096) := by
  obtain ⟨-, -, -, -, -, -, -, -, e0, e1⟩ := block_index t
  exact funext fun a => Fin.ext (by
    match a with
    | ⟨0, _⟩ => show win0_4.index t (0 : Fin 2) * 512 + 1 * p.val = 512 * (t.val / 32) + p.val; rw [e0]; omega
    | ⟨1, _⟩ => show win0_4.index t (1 : Fin 2) * 512 + 1 * q.val = 512 * (t.val / 4 % 8) + q.val; rw [e1]; omega)

/-- WHAT A WRITE-BACK WRITES is its block of the similarity array. -/
theorem flushed_eq (c : Dev nD) (t : Fin cfg0.N) (hf : (cfg0.win 4).flush t = true) :
    (dats m 0 c).flushed 4 t = ((cfg0.win 4).blk t).view.read (Elt Ideal) (target m c) := by
  have h3 : t.val % 4 = 3 := (flush0_4 t).mp hf
  have h0 : ¬t.val % 4 = 0 := by omega
  have hN : t.val < 256 := lt_of_lt_of_eq t.isLt N_0
  rw [Value.flushed4 m c t, out_after m c t h0 h3]
  funext y
  obtain ⟨p, q, rfl⟩ : ∃ (p : Fin 512) (q : Fin 512), y = ix2 p q := ⟨y 0, y 1, eq_ix2 y⟩
  have hr : 512 * (t.val / 32) + p.val < 4096 := by have := p.isLt; omega
  have hc : 512 * (t.val / 4 % 8) + q.val < 4096 := by have := q.isLt; omega
  show k0_pay3 (iblk m c 2 t) (iblk m c 3 t) ((outsAt0 m c t.val t.isLt).2) (ix2 p q)
    = target m c (((cfg0.win 4).blk t).view.emb (ix2 p q))
  rw [out_coords t p q hr hc]
  refine (Payload.divide_apply (iblk m c 2 t) (iblk m c 3 t) _ p q).trans ?_
  rw [acc_full m c t h3 p q, block_nx m c t p, block_ny m c t q]
  rfl

/-- An index of the array is in point `t`'s block iff each coordinate is in the block's range on its axis. -/
theorem mem_blk (t : Fin cfg0.N) (i : S4096x4096.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v4).slice (win0_4.rect t)).set ↔ _
  rw [View.set_slice_whole, Rect.mem_set_unit]
  exact Iff.rfl

/-- Every entry of the array is in the block some write-back writes: entry (r, s) in that of t = 32·(r/512) + 4·(s/512) + 3. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ : ∃ t : Fin cfg0.N, t.val = 32 * ((i 0).val / 512) + 4 * ((i 1).val / 512) + 3 :=
    ⟨⟨32 * ((i 0).val / 512) + 4 * ((i 1).val / 512) + 3, lt_of_lt_of_eq (b := 256) (by omega) N_0.symm⟩, rfl⟩
  obtain ⟨-, -, -, -, -, -, -, -, e0, e1⟩ := block_index t
  refine ⟨t, (flush0_4 t).mpr (by omega), ?_⟩
  rw [mem_blk]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 512 ≤ (i 1).val ∧ (i 1).val < win0_4.index t (1 : Fin 2) * 512 + 512
    rw [e1]; omega

/-- THE ARRAY AFTER THE RUN is the similarity array. -/
theorem final (c : Dev nD) : (dats m 0 c).arrAt 4 cfg0.N = target m c :=
  (dats m 0 c).arrAt_eq_of_cover 4 (target m c) (fun t hf => flushed_eq m c t hf) cover

/-- The run, read: the result array at the similarity array, the arguments unchanged. -/
theorem run : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.lean ====
/-
  Pairwise cosine similarity of the rows of two 4096 × 4096 arrays: a tiled kernel against its plain reference.

  Both programs compute  S(i, j) = (Σ_k x(i,k) · y(j,k)) / max (‖x_i‖ · ‖y_j‖, ε).  The two row-norm vectors come from
  the same host operations in both. The reference takes one 4096 × 4096 × 4096 matrix product with yᵀ; the kernel
  walks an 8 × 8 × 4 grid, accumulating each 512 × 512 output block over four products of 512 × 1024 blocks (cast to
  bf16 first: the identity on extended reals) and dividing at the fourth. The only law between the two is that a sum
  of 4096 terms is the sum of its four consecutive blocks of 1024 — associativity of addition, valid for every
  extended real — so the finiteness of the inputs is never used.

  Modules: Spec (the similarity array as one function), SumBlocks (the law), RefIsSpec (the reference is it),
  Pieces / Payload (one run of the kernel body, as values, entry by entry), Blocks (what each window reads),
  Accumulate (the accumulator over a run of four points), Result (the kernel's result array is it).
-/
import proofs.«125992_j61942018342957_1_alg».proof.Defs
import proofs.«125992_j61942018342957_1_alg».proof.Proof.Gen.Kernel
import proofs.«125992_j61942018342957_1_alg».proof.Proof.Gen.Kernel.Skeleton
import proofs.«125992_j61942018342957_1_alg».proof.Proof.Gen.Kernel.Launch
import proofs.«125992_j61942018342957_1_alg».proof.Proof.Gen.Kernel.Points
import proofs.«125992_j61942018342957_1_alg».proof.Proof.Gen.Kernel.Frame
import proofs.«125992_j61942018342957_1_alg».proof.Proof.Gen.KernelIdeal
import proofs.«125992_j61942018342957_1_alg».proof.Proof.Gen.KernelIdeal.Skeleton
import proofs.«125992_j61942018342957_1_alg».proof.Proof.Gen.KernelIdeal.Launch
import proofs.«125992_j61942018342957_1_alg».proof.Proof.Gen.KernelIdeal.Points
import proofs.«125992_j61942018342957_1_alg».proof.Proof.Gen.KernelIdeal.Frame
import proofs.«125992_j61942018342957_1_alg».proof.Proof.Gen.KernelIdeal.Value
import proofs.«125992_j61942018342957_1_alg».proof.Proof.Gen.ReferenceIdeal
import proofs.«125992_j61942018342957_1_alg».proof.Proof.Gen.ReferenceIdeal.Run
import proofs.«125992_j61942018342957_1_alg».proof.Proof.Gen.ReferenceIdeal.Read
import proofs.«125992_j61942018342957_1_alg».proof.Proof.Gen.Pre_finite_inputs
import proofs.«125992_j61942018342957_1_alg».proof.Proof.RefIsSpec
import proofs.«125992_j61942018342957_1_alg».proof.Proof.Result
import Idealize.ShloMosaic.Adequacy
import Idealize.ShloMosaic.Init

noncomputable section

namespace Cert.Proof

open Idealize.ShloMosaic Idealize.SL.Sem Cert.Kernel

/-- The word-level kernel and its idealization run, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are the same similarity array: the two
    norm vectors are the same terms of the arguments, and the rest is `Result.run` beside `RefValue.result_eq_cosSim`. -/
theorem algebraic : Cert.algebraic_KernelIdeal_ReferenceIdeal := by
  intro m ρ m' ρ' _ hagree
  refine ⟨fun c => Cert.KernelIdeal.Result.target m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq_cosSim, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
